-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x512 : Shape := ⟨2, ![8192, 512]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S8192x1024 .f32) (main_arg1 : IVec S8192x512 32) (main_arg2 : FVec F S1024x4096 .f32) (main_arg3 : FVec F S1024x4096 .f32) (main_arg4 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x4096 .f32 := Host.absf main_arg2
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S8192x1024 : Shape := ⟨2, ![8192, 1024]⟩
abbrev S8192x512 : Shape := ⟨2, ![8192, 512]⟩
abbrev S1024x4096 : Shape := ⟨2, ![1024, 4096]⟩
abbrev S4096x1024 : Shape := ⟨2, ![4096, 1024]⟩
abbrev S8192x4096 : Shape := ⟨2, ![8192, 4096]⟩
abbrev S512x1024 : Shape := ⟨2, ![512, 1024]⟩
abbrev S1024x2048 : Shape := ⟨2, ![1024, 2048]⟩
abbrev S512x2048 : Shape := ⟨2, ![512, 2048]⟩
abbrev S_ : Shape := ⟨0, ![]⟩
abbrev S8192x512x1 : Shape := ⟨3, ![8192, 512, 1]⟩
abbrev S1 : Shape := ⟨1, ![1]⟩
abbrev S1x1x1 : Shape := ⟨3, ![1, 1, 1]⟩
abbrev S8192 : Shape := ⟨1, ![8192]⟩
abbrev S8192x1 : Shape := ⟨2, ![8192, 1]⟩
abbrev S8192x512x2 : Shape := ⟨3, ![8192, 512, 2]⟩
abbrev S256x4096 : Shape := ⟨2, ![256, 4096]⟩
abbrev S256x1024 : Shape := ⟨2, ![256, 1024]⟩

abbrev nBuf : Space → Nat
  | .hbm => 87
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x512, .i32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S8192x4096, .bf16⟩
  | .hbm, ⟨6, _⟩ => ⟨S8192x4096, .bf16⟩
  | .hbm, ⟨7, _⟩ => ⟨S8192x4096, .f32⟩
  | .hbm, ⟨8, _⟩ => ⟨S_, .i32⟩
  | .hbm, ⟨9, _⟩ => ⟨S8192x512, .i32⟩
  | .hbm, ⟨10, _⟩ => ⟨S8192x512, .i1⟩
  | .hbm, ⟨11, _⟩ => ⟨S_, .i32⟩
  | .hbm, ⟨12, _⟩ => ⟨S8192x512, .i32⟩
  | .hbm, ⟨13, _⟩ => ⟨S8192x512, .i32⟩
  | .hbm, ⟨14, _⟩ => ⟨S8192x512, .i32⟩
  | .hbm, ⟨15, _⟩ => ⟨S8192x512x1, .i32⟩
  | .hbm, ⟨16, _⟩ => ⟨S1, .i32⟩
  | .hbm, ⟨17, _⟩ => ⟨S_, .i32⟩
  | .hbm, ⟨18, _⟩ => ⟨S8192x512x1, .i32⟩
  | .hbm, ⟨19, _⟩ => ⟨S8192x512x1, .i1⟩
  | .hbm, ⟨20, _⟩ => ⟨S1x1x1, .i32⟩
  | .hbm, ⟨21, _⟩ => ⟨S8192x512x1, .i32⟩
  | .hbm, ⟨22, _⟩ => ⟨S8192x512x1, .i1⟩
  | .hbm, ⟨23, _⟩ => ⟨S8192x512x1, .i1⟩
  | .hbm, ⟨24, _⟩ => ⟨S_, .i1⟩
  | .hbm, ⟨25, _⟩ => ⟨S8192x512, .i1⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x4096, .f32⟩
  | .hbm, ⟨31, _⟩ => ⟨S_, .i32⟩
  | .hbm, ⟨32, _⟩ => ⟨S8192x512, .i32⟩
  | .hbm, ⟨33, _⟩ => ⟨S8192x512, .i1⟩
  | .hbm, ⟨34, _⟩ => ⟨S_, .i32⟩
  | .hbm, ⟨35, _⟩ => ⟨S8192x512, .i32⟩
  | .hbm, ⟨36, _⟩ => ⟨S8192x512, .i32⟩
  | .hbm, ⟨37, _⟩ => ⟨S8192x512, .i32⟩
  | .hbm, ⟨38, _⟩ => ⟨S8192x512x1, .i32⟩
  | .hbm, ⟨39, _⟩ => ⟨S1, .i32⟩
  | .hbm, ⟨40, _⟩ => ⟨S_, .i32⟩
  | .hbm, ⟨41, _⟩ => ⟨S8192x512x1, .i32⟩
  | .hbm, ⟨42, _⟩ => ⟨S8192x512x1, .i1⟩
  | .hbm, ⟨43, _⟩ => ⟨S1x1x1, .i32⟩
  | .hbm, ⟨44, _⟩ => ⟨S8192x512x1, .i32⟩
  | .hbm, ⟨45, _⟩ => ⟨S8192x512x1, .i1⟩
  | .hbm, ⟨46, _⟩ => ⟨S8192x512x1, .i1⟩
  | .hbm, ⟨47, _⟩ => ⟨S_, .i1⟩
  | .hbm, ⟨48, _⟩ => ⟨S8192x512, .i1⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192, .i32⟩
  | .hbm, ⟨64, _⟩ => ⟨S8192x1, .i32⟩
  | .hbm, ⟨65, _⟩ => ⟨S_, .f32⟩
  | .hbm, ⟨66, _⟩ => ⟨S8192x4096, .f32⟩
  | .hbm, ⟨67, _⟩ => ⟨S_, .i32⟩
  | .hbm, ⟨68, _⟩ => ⟨S8192x1, .i32⟩
  | .hbm, ⟨69, _⟩ => ⟨S8192x1, .i1⟩
  | .hbm, ⟨70, _⟩ => ⟨S_, .i32⟩
  | .hbm, ⟨71, _⟩ => ⟨S8192x1, .i32⟩
  | .hbm, ⟨72, _⟩ => ⟨S8192x1, .i32⟩
  | .hbm, ⟨73, _⟩ => ⟨S8192x1, .i32⟩
  | .hbm, ⟨74, _⟩ => ⟨S_, .i32⟩
  | .hbm, ⟨75, _⟩ => ⟨S8192x512, .i32⟩
  | .hbm, ⟨76, _⟩ => ⟨S8192x512, .i1⟩
  | .hbm, ⟨77, _⟩ => ⟨S_, .i32⟩
  | .hbm, ⟨78, _⟩ => ⟨S8192x512, .i32⟩
  | .hbm, ⟨79, _⟩ => ⟨S8192x512, .i32⟩
  | .hbm, ⟨80, _⟩ => ⟨S8192x512, .i32⟩
  | .hbm, ⟨81, _⟩ => ⟨S8192x512, .i32⟩
  | .hbm, ⟨82, _⟩ => ⟨S8192x512x1, .i32⟩
  | .hbm, ⟨83, _⟩ => ⟨S8192x512x1, .i32⟩
  | .hbm, ⟨84, _⟩ => ⟨S8192x512x2, .i32⟩
  | .hbm, ⟨85, _⟩ => ⟨S8192x4096, .f32⟩
  | .hbm, ⟨86, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S256x4096, .f32⟩
  | .local _ .vmem, ⟨11, _⟩ => ⟨S256x4096, .f32⟩
  | .local _ .vmem, ⟨12, _⟩ => ⟨S4096x1024, .f32⟩
  | .local _ .vmem, ⟨13, _⟩ => ⟨S256x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v2 : Ref sig .tc := ⟨.hbm, 29, rfl⟩
abbrev main_v3 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v4 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_c : Ref sig .tc := ⟨.hbm, 67, rfl⟩
abbrev main_v10 : Ref sig .tc := ⟨.hbm, 68, rfl⟩
abbrev main_v11 : Ref sig .tc := ⟨.hbm, 69, rfl⟩
abbrev main_c_0 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_c_1 : Ref sig .tc := ⟨.hbm, 74, rfl⟩
abbrev main_v15 : Ref sig .tc := ⟨.hbm, 75, rfl⟩
abbrev main_v16 : Ref sig .tc := ⟨.hbm, 76, rfl⟩
abbrev main_c_2 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  bcast_S_S8192x512 : S_.BroadcastsInDim S8192x512 (![] : Fin 0 → Fin S8192x512.rank)
  shapeCasts_S8192x512_S8192x512x1 : S8192x512.ShapeCasts S8192x512x1
  bcast_S_S8192x512x1 : S_.BroadcastsInDim S8192x512x1 (![] : Fin 0 → Fin S8192x512x1.rank)
  bcast_S1_S1x1x1_2 : S1.BroadcastsInDim S1x1x1 (![2] : Fin 1 → Fin S1x1x1.rank)
  bcast_S1x1x1_S8192x512x1_0_1_2 : S1x1x1.BroadcastsInDim S8192x512x1 (![0, 1, 2] : Fin 3 → Fin S8192x512x1.rank)
  reducesTo_S8192x512x1_S8192x512_d2 : S8192x512x1.ReducesTo [2] S8192x512
  h_S_ : 0 < S_.numel
  bcast_S8192_S8192x1_0 : S8192.BroadcastsInDim S8192x1 (![0] : Fin 1 → Fin S8192x1.rank)
  bcast_S_S8192x4096 : S_.BroadcastsInDim S8192x4096 (![] : Fin 0 → Fin S8192x4096.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S8192x512_S8192x512x1_0_1 : S8192x512.BroadcastsInDim S8192x512x1 (![0, 1] : Fin 2 → Fin S8192x512x1.rank)
  concatenates_S8192x512x1_S8192x512x1_S8192x512x2_d2 : Shape.Concatenates [S8192x512x1, S8192x512x1] S8192x512x2 2
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  inb_S256x1024_S256x1024_0_0 : ∀ a, (![0, 0] : Fin 2 → Nat) a + S256x1024.size a ≤ S256x1024.size a
  h_S256x1024 : 0 < S256x1024.numel
  dot_S512x1024_S1024x2048_S512x2048_1_0_0_1_n_n_wf : DotDims.WF S512x1024 S1024x2048 S512x2048 [1] [0] [0] [1] [] []
  gather_S8192x4096_S8192x512x1_S8192x512_n_1_0_0_1_2_11_wf : GatherDims.WF S8192x4096 S8192x512x1 S8192x512 [] [1] [0] [1] [0] 2 ![1, 1]
  scatter_S8192x4096_S8192x512x2_S8192x512_n_01_01_2_wf : ScatterDims.WF S8192x4096 S8192x512x2 S8192x512 [] [0, 1] [0, 1] 2
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x4096.size a
  hwx0_1 : ∀ i : grid0.Coords, EltTy.bits .f32 = 32 ∨ (Rect.block (s := S1024x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x4096.size a
  hwx0_2 : ∀ i : grid0.Coords, EltTy.bits .f32 = 32 ∨ (Rect.block (s := S1024x4096) S1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x4096.size a
  hwx0_3 : ∀ i : grid0.Coords, EltTy.bits .bf16 = 32 ∨ (Rect.block (s := S8192x4096) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x4096.size a
  hwx0_4 : ∀ i : grid0.Coords, EltTy.bits .bf16 = 32 ∨ (Rect.block (s := S8192x4096) S512x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .f32 = 32 ∨ (Rect.block (s := S4096x1024) S4096x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S8192x1024.size a
  hwx1_2 : ∀ i : grid1.Coords, EltTy.bits .f32 = 32 ∨ (Rect.block (s := S8192x1024) S256x1024.size (cc1_transform_2 i) (hinb1_2 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def gather_S8192x4096_S8192x512x1_S8192x512_n_1_0_0_1_2_11 : GatherDims S8192x4096 S8192x512x1 S8192x512 where
  offsetDims := []
  collapsedSliceDims := [1]
  operandBatchingDims := [0]
  startIndicesBatchingDims := [0]
  startIndexMap := [1]
  indexVectorDim := 2
  sliceSizes := ![1, 1]
  wf := gather_S8192x4096_S8192x512x1_S8192x512_n_1_0_0_1_2_11_wf
def scatter_S8192x4096_S8192x512x2_S8192x512_n_01_01_2 : ScatterDims S8192x4096 S8192x512x2 S8192x512 where
  updateWindowDims := []
  insertedWindowDims := [0, 1]
  scatterDimsToOperandDims := [0, 1]
  indexVectorDim := 2
  wf := scatter_S8192x4096_S8192x512x2_S8192x512_n_01_01_2_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x512 : Shape := ⟨2, ![8192, 512]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S8192x512x1 : Shape := ⟨3, ![8192, 512, 1]⟩
abbrev S1 : Shape := ⟨1, ![1]⟩
abbrev S1x1x1 : Shape := ⟨3, ![1, 1, 1]⟩
abbrev S8192 : Shape := ⟨1, ![8192]⟩
abbrev S8192x1 : Shape := ⟨2, ![8192, 1]⟩
abbrev S8192x512x2 : Shape := ⟨3, ![8192, 512, 2]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .i32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S8192x4096, .f32⟩
  | .hbm, ⟨6, _⟩ => ⟨S8192x4096, .f32⟩
  | .hbm, ⟨7, _⟩ => ⟨S_, .i32⟩
  | .hbm, ⟨8, _⟩ => ⟨S8192x512, .i32⟩
  | .hbm, ⟨9, _⟩ => ⟨S8192x512, .i1⟩
  | .hbm, ⟨10, _⟩ => ⟨S_, .i32⟩
  | .hbm, ⟨11, _⟩ => ⟨S8192x512, .i32⟩
  | .hbm, ⟨12, _⟩ => ⟨S8192x512, .i32⟩
  | .hbm, ⟨13, _⟩ => ⟨S8192x512, .i32⟩
  | .hbm, ⟨14, _⟩ => ⟨S8192x512x1, .i32⟩
  | .hbm, ⟨15, _⟩ => ⟨S1, .i32⟩
  | .hbm, ⟨16, _⟩ => ⟨S_, .i32⟩
  | .hbm, ⟨17, _⟩ => ⟨S8192x512x1, .i32⟩
  | .hbm, ⟨18, _⟩ => ⟨S8192x512x1, .i1⟩
  | .hbm, ⟨19, _⟩ => ⟨S1x1x1, .i32⟩
  | .hbm, ⟨20, _⟩ => ⟨S8192x512x1, .i32⟩
  | .hbm, ⟨21, _⟩ => ⟨S8192x512x1, .i1⟩
  | .hbm, ⟨22, _⟩ => ⟨S8192x512x1, .i1⟩
  | .hbm, ⟨23, _⟩ => ⟨S_, .i1⟩
  | .hbm, ⟨24, _⟩ => ⟨S8192x512, .i1⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .i32⟩
  | .hbm, ⟨30, _⟩ => ⟨S8192x512, .i32⟩
  | .hbm, ⟨31, _⟩ => ⟨S8192x512, .i1⟩
  | .hbm, ⟨32, _⟩ => ⟨S_, .i32⟩
  | .hbm, ⟨33, _⟩ => ⟨S8192x512, .i32⟩
  | .hbm, ⟨34, _⟩ => ⟨S8192x512, .i32⟩
  | .hbm, ⟨35, _⟩ => ⟨S8192x512, .i32⟩
  | .hbm, ⟨36, _⟩ => ⟨S8192x512x1, .i32⟩
  | .hbm, ⟨37, _⟩ => ⟨S1, .i32⟩
  | .hbm, ⟨38, _⟩ => ⟨S_, .i32⟩
  | .hbm, ⟨39, _⟩ => ⟨S8192x512x1, .i32⟩
  | .hbm, ⟨40, _⟩ => ⟨S8192x512x1, .i1⟩
  | .hbm, ⟨41, _⟩ => ⟨S1x1x1, .i32⟩
  | .hbm, ⟨42, _⟩ => ⟨S8192x512x1, .i32⟩
  | .hbm, ⟨43, _⟩ => ⟨S8192x512x1, .i1⟩
  | .hbm, ⟨44, _⟩ => ⟨S8192x512x1, .i1⟩
  | .hbm, ⟨45, _⟩ => ⟨S_, .i1⟩
  | .hbm, ⟨46, _⟩ => ⟨S8192x512, .i1⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192, .i32⟩
  | .hbm, ⟨62, _⟩ => ⟨S8192x1, .i32⟩
  | .hbm, ⟨63, _⟩ => ⟨S_, .f32⟩
  | .hbm, ⟨64, _⟩ => ⟨S8192x4096, .f32⟩
  | .hbm, ⟨65, _⟩ => ⟨S_, .i32⟩
  | .hbm, ⟨66, _⟩ => ⟨S8192x1, .i32⟩
  | .hbm, ⟨67, _⟩ => ⟨S8192x1, .i1⟩
  | .hbm, ⟨68, _⟩ => ⟨S_, .i32⟩
  | .hbm, ⟨69, _⟩ => ⟨S8192x1, .i32⟩
  | .hbm, ⟨70, _⟩ => ⟨S8192x1, .i32⟩
  | .hbm, ⟨71, _⟩ => ⟨S8192x1, .i32⟩
  | .hbm, ⟨72, _⟩ => ⟨S_, .i32⟩
  | .hbm, ⟨73, _⟩ => ⟨S8192x512, .i32⟩
  | .hbm, ⟨74, _⟩ => ⟨S8192x512, .i1⟩
  | .hbm, ⟨75, _⟩ => ⟨S_, .i32⟩
  | .hbm, ⟨76, _⟩ => ⟨S8192x512, .i32⟩
  | .hbm, ⟨77, _⟩ => ⟨S8192x512, .i32⟩
  | .hbm, ⟨78, _⟩ => ⟨S8192x512, .i32⟩
  | .hbm, ⟨79, _⟩ => ⟨S8192x512, .i32⟩
  | .hbm, ⟨80, _⟩ => ⟨S8192x512x1, .i32⟩
  | .hbm, ⟨81, _⟩ => ⟨S8192x512x1, .i32⟩
  | .hbm, ⟨82, _⟩ => ⟨S8192x512x2, .i32⟩
  | .hbm, ⟨83, _⟩ => ⟨S8192x4096, .f32⟩
  | .hbm, ⟨84, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v2 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v3 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst : Ref sig .tc := ⟨.hbm, 63, rfl⟩
abbrev main_v8 : Ref sig .tc := ⟨.hbm, 64, rfl⟩
abbrev main_c : Ref sig .tc := ⟨.hbm, 65, rfl⟩
abbrev main_v9 : Ref sig .tc := ⟨.hbm, 66, rfl⟩
abbrev main_v10 : Ref sig .tc := ⟨.hbm, 67, rfl⟩
abbrev main_c_0 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_c_1 : Ref sig .tc := ⟨.hbm, 72, rfl⟩
abbrev main_v14 : Ref sig .tc := ⟨.hbm, 73, rfl⟩
abbrev main_v15 : Ref sig .tc := ⟨.hbm, 74, rfl⟩
abbrev main_c_2 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩

abbrev nD : Nat := 1
abbrev τ : Topo := Topo.v7x

variable {F : FTy → Type} [FloatOps F]

class Facts₀ : Prop where
  bcast_S_S8192x512 : S_.BroadcastsInDim S8192x512 (![] : Fin 0 → Fin S8192x512.rank)
  shapeCasts_S8192x512_S8192x512x1 : S8192x512.ShapeCasts S8192x512x1
  bcast_S_S8192x512x1 : S_.BroadcastsInDim S8192x512x1 (![] : Fin 0 → Fin S8192x512x1.rank)
  bcast_S1_S1x1x1_2 : S1.BroadcastsInDim S1x1x1 (![2] : Fin 1 → Fin S1x1x1.rank)
  bcast_S1x1x1_S8192x512x1_0_1_2 : S1x1x1.BroadcastsInDim S8192x512x1 (![0, 1, 2] : Fin 3 → Fin S8192x512x1.rank)
  reducesTo_S8192x512x1_S8192x512_d2 : S8192x512x1.ReducesTo [2] S8192x512
  h_S_ : 0 < S_.numel
  bcast_S8192_S8192x1_0 : S8192.BroadcastsInDim S8192x1 (![0] : Fin 1 → Fin S8192x1.rank)
  bcast_S_S8192x4096 : S_.BroadcastsInDim S8192x4096 (![] : Fin 0 → Fin S8192x4096.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S8192x512_S8192x512x1_0_1 : S8192x512.BroadcastsInDim S8192x512x1 (![0, 1] : Fin 2 → Fin S8192x512x1.rank)
  concatenates_S8192x512x1_S8192x512x1_S8192x512x2_d2 : Shape.Concatenates [S8192x512x1, S8192x512x1] S8192x512x2 2
  dot_S8192x1024_S1024x4096_S8192x4096_1_0_0_1_n_n_wf : DotDims.WF S8192x1024 S1024x4096 S8192x4096 [1] [0] [0] [1] [] []
  gather_S8192x4096_S8192x512x1_S8192x512_n_1_0_0_1_2_11_wf : GatherDims.WF S8192x4096 S8192x512x1 S8192x512 [] [1] [0] [1] [0] 2 ![1, 1]
  scatter_S8192x4096_S8192x512x2_S8192x512_n_01_01_2_wf : ScatterDims.WF S8192x4096 S8192x512x2 S8192x512 [] [0, 1] [0, 1] 2
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def gather_S8192x4096_S8192x512x1_S8192x512_n_1_0_0_1_2_11 : GatherDims S8192x4096 S8192x512x1 S8192x512 where
  offsetDims := []
  collapsedSliceDims := [1]
  operandBatchingDims := [0]
  startIndicesBatchingDims := [0]
  startIndexMap := [1]
  indexVectorDim := 2
  sliceSizes := ![1, 1]
  wf := gather_S8192x4096_S8192x512x1_S8192x512_n_1_0_0_1_2_11_wf
def scatter_S8192x4096_S8192x512x2_S8192x512_n_01_01_2 : ScatterDims S8192x4096 S8192x512x2 S8192x512 where
  updateWindowDims := []
  insertedWindowDims := [0, 1]
  scatterDimsToOperandDims := [0, 1]
  indexVectorDim := 2
  wf := scatter_S8192x4096_S8192x512x2_S8192x512_n_01_01_2_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.BlockProducts.lean ====
/-
  The three kernel bodies as matrix products at the extended reals.

  A change of float format is the identity on the extended reals, and each body multiplies its whole left block by its
  whole right block into a zero accumulator. So what a body stores at entry `(p, q)` of its output block is
  `∑ k, left (p, k) * right (k, q)`, the contraction running over the blocks' whole shared axis: all 1024 model
  features for the gate and the up projection, all 4096 hidden features for the down projection.
-/
import proofs.«126895_j36009005809979_1_alg».proof.Proof.Gen.KernelIdeal.Skeleton
import proofs.«126895_j36009005809979_1_alg».proof.Proof.LibPlainDot
import Idealize.ShloMosaic.Lib.ValueIdx
import Idealize.ShloMosaic.Lib.Pipeline.Value

noncomputable section

namespace Cert.KernelIdeal.BlockProducts

open Idealize.ShloMosaic Idealize.ShloMosaic.ValueIdx Cert.KernelIdeal Cert.KernelIdeal.Gen

/-- The gate projection's block: entry `(p, q)` is the product of row `p` of the token block with column `q` of the
    gate weights' block. -/
theorem gate_block_apply (x : FVec Ideal S512x1024 .f32) (w : FVec Ideal S1024x2048 .f32) (p : Fin 512) (q : Fin 2048) :
    k0_pay2 (F := Ideal) x w (ix2 p q) = ∑ k : Fin 1024, x (ix2 p k) * w (ix2 k q) := by
  show FloatOps.matmul (DotDims.plain 512 1024 2048) none (truncf .bf16 x bitsLt_bf16_f32) (truncf .bf16 w bitsLt_bf16_f32)
      (constant (F := Ideal) ⟨2, ![512, 2048]⟩ .f32 0x00000000#32) (ix2 p q) = _
  exact Cert.Sage.matmul_plain_zero_apply none _ _ p q

/-- The up projection's block: the same product against the up weights' block. -/
theorem up_block_apply (x : FVec Ideal S512x1024 .f32) (w : FVec Ideal S1024x2048 .f32) (p : Fin 512) (q : Fin 2048) :
    k0_pay3 (F := Ideal) x w (ix2 p q) = ∑ k : Fin 1024, x (ix2 p k) * w (ix2 k q) := by
  show FloatOps.matmul (DotDims.plain 512 1024 2048) none (truncf .bf16 x bitsLt_bf16_f32) (truncf .bf16 w bitsLt_bf16_f32)
      (constant (F := Ideal) ⟨2, ![512, 2048]⟩ .f32 0x00000000#32) (ix2 p q) = _
  exact Cert.Sage.matmul_plain_zero_apply none _ _ p q

/-- The down projection's block: entry `(p, q)` is the product of row `p` of the hidden block with column `q` of the
    down weights. (The body's shape cast is to the block's own shape: the identity.) -/
theorem down_block_apply (z : FVec Ideal S256x4096 .f32) (w : FVec Ideal S4096x1024 .f32) (p : Fin 256) (q : Fin 1024) :
    k1_pay1 (F := Ideal) z w (ix2 p q) = ∑ k : Fin 4096, z (ix2 p k) * w (ix2 k q) := by
  unfold k1_pay1
  rw [shapeCast_self]
  show FloatOps.matmul (DotDims.plain 256 4096 1024) none (truncf .bf16 z bitsLt_bf16_f32) (truncf .bf16 w bitsLt_bf16_f32)
      (constant (F := Ideal) ⟨2, ![256, 1024]⟩ .f32 0x00000000#32) (ix2 p q) = _
  exact Cert.Sage.matmul_plain_zero_apply none _ _ p q

end Cert.KernelIdeal.BlockProducts

end
-- ==== Proof.MatProd.lean ====
/-
  The product of two matrices, entry by entry, at the extended reals: the one function both programs' three
  products are stated with.

  Entry `(r, c)` of the product of an `[M, K]` array with a `[K, N]` array is `∑ k, A (r, k) * B (k, c)`. The host's
  `dot_general` with the plain dimension numbers (contract the left operand's columns with the right operand's rows,
  no batch axis) is this function of its operands.
-/
import proofs.«126895_j36009005809979_1_alg».proof.Proof.LibPlainDot

noncomputable section

namespace Cert.MatProd

open Idealize.ShloMosaic Idealize.ShloMosaic.ValueIdx

/-- The matrix product, entry by entry. -/
def matProd {M K N : ℕ} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- The product at an entry named by its coordinates. -/
theorem matProd_apply {M K N : ℕ} (A : (⟨2, ![M, K]⟩ : Shape).Idx → EReal) (B : (⟨2, ![K, N]⟩ : Shape).Idx → EReal)
    (r : Fin M) (c : Fin N) : matProd A B (ix2 r c) = ∑ k : Fin K, A (ix2 r k) * B (ix2 k c) := rfl

/-- The host's plain `dot_general` is the matrix product of its operands. -/
theorem dotGeneral_eq_matProd {M K N : ℕ} {φ₁ φ₂ : FTy} (prec : Option ContractPrecision)
    (lhs : FVec Ideal ⟨2, ![M, K]⟩ φ₁) (rhs : FVec Ideal ⟨2, ![K, N]⟩ φ₂) :
    Host.dotGeneral (DotDims.plain M K N) prec lhs rhs = matProd lhs rhs := by
  funext j
  obtain ⟨r, c, rfl⟩ : ∃ (r : Fin M) (c : Fin N), j = ix2 r c := ⟨j 0, j 1, eq_ix2 j⟩
  exact Cert.Sage.dotGeneral_plain_apply prec .single lhs rhs r c

end Cert.MatProd

end
-- ==== Proof.GateUpArrays.lean ====
/-
  What the gate/up region leaves in its two output arrays.

  The region's grid has 2 x 16 points. At a point whose output block has block indices (i, j), the body sees rows
  512 i .. 512 i + 511 of the tokens (all 1024 features) and columns 2048 j .. 2048 j + 2047 of each weight array (all
  1024 rows), and stores their product into block (i, j) of each output. The contraction is whole inside every block,
  so an entry of a stored block is the entry of the product of the whole arrays at the block's position; the 32
  blocks tile the 8192 x 4096 outputs; so each output array ends as the product of the token array with its weight
  array, whatever the region found in its arrays at entry.
-/
import proofs.«126895_j36009005809979_1_alg».proof.Proof.Gen.KernelIdeal.Frame
import proofs.«126895_j36009005809979_1_alg».proof.Proof.BlockProducts
import proofs.«126895_j36009005809979_1_alg».proof.Proof.MatProd
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.GateUp

open Cert.KernelIdeal Cert.KernelIdeal.Gen Cert.MatProd

-- the contents of the TensorCore's buffers when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The region's index maps, decided over its 32 points: the token block moves with the output's row block and spans
    all features; each weight block moves with the output's column block and spans all rows; the two outputs move
    together; the output's block indices stay below 16 and 2. -/
theorem index_maps : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_4.index t (0 : Fin 2) = win0_3.index t (0 : Fin 2) ∧ win0_4.index t (1 : Fin 2) = win0_3.index t (1 : Fin 2)
    ∧ win0_3.index t (0 : Fin 2) ≤ 15 ∧ win0_3.index t (1 : Fin 2) ≤ 1 :=
  (by decide +kernel : ∀ t : Fin grid0.N, _)

/-- Every output block position is some point's. -/
theorem points_onto : ∀ (q0 : Fin 16) (q1 : Fin 2), ∃ t : Fin cfg0.N, win0_3.index t = ![q0.val, q1.val] :=
  (by decide +kernel : ∀ (q0 : Fin 16) (q1 : Fin 2), ∃ t : Fin grid0.N, win0_3.index t = ![q0.val, q1.val])

/-! ## The input blocks as entries of the arrays -/

/-- An entry of the token block at point `t` is the token array's entry in row `512 * (row block) + p`. -/
theorem token_block_apply (c : Dev nD) (t : Fin cfg0.N) (p : Fin 512) (k : Fin 1024) (r : Fin 8192)
    (hr : r.val = win0_3.index t (0 : Fin 2) * 512 + p.val) :
    @Eq EReal ((iblk0 V c 0 t : Vec Ideal S512x1024 .f32) (ix2 p k)) ((V c main_arg0 : S8192x1024.Idx → EReal) (ix2 r k)) := by
  obtain ⟨e0, e1, -⟩ := index_maps t
  unfold iblk0
  rw [View.read_apply]
  show V c main_arg0 _ = V c main_arg0 _
  refine congrArg (V c main_arg0) ?_
  funext a
  apply Fin.ext
  match a with
  | ⟨0, _⟩ => show win0_0.index t (0 : Fin 2) * 512 + 1 * p.val = r.val; omega
  | ⟨1, _⟩ => show win0_0.index t (1 : Fin 2) * 1024 + 1 * k.val = k.val; omega

/-- An entry of the gate weights' block at point `t` is the gate weights' entry in column `2048 * (column block) + q`. -/
theorem gate_weight_block_apply (c : Dev nD) (t : Fin cfg0.N) (k : Fin 1024) (q : Fin 2048) (s : Fin 4096)
    (hs : s.val = win0_3.index t (1 : Fin 2) * 2048 + q.val) :
    @Eq EReal ((iblk0 V c 1 t : Vec Ideal S1024x2048 .f32) (ix2 k q)) ((V c main_arg2 : S1024x4096.Idx → EReal) (ix2 k s)) := by
  obtain ⟨-, -, e2, e3, -⟩ := index_maps t
  unfold iblk0
  rw [View.read_apply]
  show V c main_arg2 _ = V c main_arg2 _
  refine congrArg (V c main_arg2) ?_
  funext a
  apply Fin.ext
  match a with
  | ⟨0, _⟩ => show win0_1.index t (0 : Fin 2) * 1024 + 1 * k.val = k.val; omega
  | ⟨1, _⟩ => show win0_1.index t (1 : Fin 2) * 2048 + 1 * q.val = s.val; omega

/-- An entry of the up weights' block at point `t` is the up weights' entry in column `2048 * (column block) + q`. -/
theorem up_weight_block_apply (c : Dev nD) (t : Fin cfg0.N) (k : Fin 1024) (q : Fin 2048) (s : Fin 4096)
    (hs : s.val = win0_3.index t (1 : Fin 2) * 2048 + q.val) :
    @Eq EReal ((iblk0 V c 2 t : Vec Ideal S1024x2048 .f32) (ix2 k q)) ((V c main_arg3 : S1024x4096.Idx → EReal) (ix2 k s)) := by
  obtain ⟨-, -, -, -, e4, e5, -⟩ := index_maps t
  unfold iblk0
  rw [View.read_apply]
  show V c main_arg3 _ = V c main_arg3 _
  refine congrArg (V c main_arg3) ?_
  funext a
  apply Fin.ext
  match a with
  | ⟨0, _⟩ => show win0_2.index t (0 : Fin 2) * 1024 + 1 * k.val = k.val; omega
  | ⟨1, _⟩ => show win0_2.index t (1 : Fin 2) * 2048 + 1 * q.val = s.val; omega

/-! ## The gate output -/

/-- What point `t` writes back to the gate output is block `t` of the product of the tokens with the gate weights. -/
theorem gate_flushed (c : Dev nD) (t : Fin cfg0.N) :
    (dat0 V c).flushed 3 t = ((cfg0.win 3).blk t).view.read (Elt Ideal)
      (matProd (V c main_arg0 : S8192x1024.Idx → EReal) (V c main_arg2 : S1024x4096.Idx → EReal)) := by
  show (cfg0.win 3).cut (grid0.coords t) ((dat0 V c).after 3 t) = _
  rw [after0_3]
  unfold out0_3
  rw [View.canon_unit_zero zero_offsets]
  simp only [View.ld_unit_zero (S := S512x1024) zero_offsets, View.ld_unit_zero (S := S1024x2048) zero_offsets]
  refine funext fun (j : S512x2048.Idx) => ?_
  obtain ⟨p, q, rfl⟩ : ∃ (p : Fin 512) (q : Fin 2048), j = ix2 p q := ⟨j 0, j 1, eq_ix2 j⟩
  rw [View.read_apply]
  show k0_pay2 (F := Ideal) (iblk0 V c 0 t) (iblk0 V c 1 t) (ix2 p q) = _
  refine (BlockProducts.gate_block_apply (iblk0 V c 0 t) (iblk0 V c 1 t) p q).trans ?_
  unfold matProd
  refine Finset.sum_congr (M := EReal) rfl fun k _ => ?_
  exact congrArg₂ (· * ·)
    (token_block_apply V c t p k _ (by show win0_3.index t (0 : Fin 2) * 512 + 1 * p.val = _; omega))
    (gate_weight_block_apply V c t k q _ (by show win0_3.index t (1 : Fin 2) * 2048 + 1 * q.val = _; omega))

/-- An entry of the gate output is in point `t`'s block iff each coordinate is in the block's range. -/
theorem gate_mem_block (t : Fin cfg0.N) (i : S8192x4096.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v0_0).slice (win0_3.rect t)).set ↔ _
  rw [View.set_slice_whole, Rect.mem_set_unit]
  exact Iff.rfl

/-- The blocks tile the gate output: entry `(r, s)` is in the block of the point with block indices `(r / 512, s / 2048)`. -/
theorem gate_cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := points_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [gate_mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE GATE OUTPUT after the region: the product of the token array with the gate weights, as the region found them. -/
theorem gate_array (c : Dev nD) :
    (dat0 V c).arrAt 3 cfg0.N = matProd (V c main_arg0 : S8192x1024.Idx → EReal) (V c main_arg2 : S1024x4096.Idx → EReal) :=
  (dat0 V c).arrAt_eq_of_cover 3 _ (fun t _ => gate_flushed V c t) gate_cover

/-! ## The up output -/

/-- What point `t` writes back to the up output is block `t` of the product of the tokens with the up weights. -/
theorem up_flushed (c : Dev nD) (t : Fin cfg0.N) :
    (dat0 V c).flushed 4 t = ((cfg0.win 4).blk t).view.read (Elt Ideal)
      (matProd (V c main_arg0 : S8192x1024.Idx → EReal) (V c main_arg3 : S1024x4096.Idx → EReal)) := by
  obtain ⟨-, -, -, -, -, -, e6, e7, -⟩ := index_maps t
  show (cfg0.win 4).cut (grid0.coords t) ((dat0 V c).after 4 t) = _
  rw [after0_4]
  unfold out0_4
  rw [View.canon_unit_zero zero_offsets]
  simp only [View.ld_unit_zero (S := S512x1024) zero_offsets, View.ld_unit_zero (S := S1024x2048) zero_offsets]
  refine funext fun (j : S512x2048.Idx) => ?_
  obtain ⟨p, q, rfl⟩ : ∃ (p : Fin 512) (q : Fin 2048), j = ix2 p q := ⟨j 0, j 1, eq_ix2 j⟩
  rw [View.read_apply]
  show k0_pay3 (F := Ideal) (iblk0 V c 0 t) (iblk0 V c 2 t) (ix2 p q) = _
  refine (BlockProducts.up_block_apply (iblk0 V c 0 t) (iblk0 V c 2 t) p q).trans ?_
  unfold matProd
  refine Finset.sum_congr (M := EReal) rfl fun k _ => ?_
  exact congrArg₂ (· * ·)
    (token_block_apply V c t p k _ (by show win0_4.index t (0 : Fin 2) * 512 + 1 * p.val = _; omega))
    (up_weight_block_apply V c t k q _ (by show win0_4.index t (1 : Fin 2) * 2048 + 1 * q.val = _; omega))

/-- An entry of the up output is in point `t`'s block iff each coordinate is in the block's range. -/
theorem up_mem_block (t : Fin cfg0.N) (i : S8192x4096.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v0_1).slice (win0_4.rect t)).set ↔ _
  rw [View.set_slice_whole, Rect.mem_set_unit]
  exact Iff.rfl

/-- The blocks tile the up output, as they tile the gate output. -/
theorem up_cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := points_onto ⟨(i 0).val / 512, by omega⟩ ⟨(i 1).val / 2048, by omega⟩
  obtain ⟨-, -, -, -, -, -, e6, e7, -⟩ := index_maps t
  have q0 : win0_3.index t (0 : Fin 2) = (i 0).val / 512 := congrFun ht 0
  have q1 : win0_3.index t (1 : Fin 2) = (i 1).val / 2048 := congrFun ht 1
  refine ⟨t, flush0_4 t, ?_⟩
  rw [up_mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- THE UP OUTPUT after the region: the product of the token array with the up weights, as the region found them. -/
theorem up_array (c : Dev nD) :
    (dat0 V c).arrAt 4 cfg0.N = matProd (V c main_arg0 : S8192x1024.Idx → EReal) (V c main_arg3 : S1024x4096.Idx → EReal) :=
  (dat0 V c).arrAt_eq_of_cover 4 _ (fun t _ => up_flushed V c t) up_cover

end Cert.KernelIdeal.GateUp

end
-- ==== Proof.DownArray.lean ====
/-
  What the down-projection region leaves in its output array.

  The region's grid has 32 points. At point `i` the body sees rows 256 i .. 256 i + 255 of the hidden array (all 4096
  hidden features) and the whole down weights, and stores their product into rows 256 i .. 256 i + 255 of the output.
  The contraction is whole inside every block and the 32 row blocks tile the 8192 x 1024 output, so the output array
  ends as the product of the hidden array with the down weights, as the region found them.
-/
import proofs.«126895_j36009005809979_1_alg».proof.Proof.Gen.KernelIdeal.Frame
import proofs.«126895_j36009005809979_1_alg».proof.Proof.BlockProducts
import proofs.«126895_j36009005809979_1_alg».proof.Proof.MatProd
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Down

open Cert.KernelIdeal Cert.KernelIdeal.Gen Cert.MatProd

-- the contents of the TensorCore's buffers when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The region's index maps, decided over its 32 points: the hidden block moves with the output's row block and spans
    all hidden features; the down weights' one block is the whole array; the output's blocks span all columns, and
    their row block index stays below 32. -/
theorem index_maps : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 31 :=
  (by decide +kernel : ∀ t : Fin grid1.N, _)

/-- Every row block of the output is some point's. -/
theorem points_onto : ∀ (q0 : Fin 32), ∃ t : Fin cfg1.N, win1_2.index t = ![q0.val, 0] :=
  (by decide +kernel : ∀ (q0 : Fin 32), ∃ t : Fin grid1.N, win1_2.index t = ![q0.val, 0])

/-- An entry of the hidden block at point `t` is the hidden array's entry in row `256 * (row block) + p`. -/
theorem hidden_block_apply (c : Dev nD) (t : Fin cfg1.N) (p : Fin 256) (k : Fin 4096) (r : Fin 8192)
    (hr : r.val = win1_2.index t (0 : Fin 2) * 256 + p.val) :
    @Eq EReal ((iblk1 V c 0 t : Vec Ideal S256x4096 .f32) (ix2 p k)) ((V c main_v24 : S8192x4096.Idx → EReal) (ix2 r k)) := by
  obtain ⟨e0, e1, -⟩ := index_maps t
  unfold iblk1
  rw [View.read_apply]
  show V c main_v24 _ = V c main_v24 _
  refine congrArg (V c main_v24) ?_
  funext a
  apply Fin.ext
  match a with
  | ⟨0, _⟩ => show win1_0.index t (0 : Fin 2) * 256 + 1 * p.val = r.val; omega
  | ⟨1, _⟩ => show win1_0.index t (1 : Fin 2) * 4096 + 1 * k.val = k.val; omega

/-- The down weights' block at any point is the whole array. -/
theorem weight_block_apply (c : Dev nD) (t : Fin cfg1.N) (k : Fin 4096) (q : Fin 1024) (s : Fin 1024) (hs : s.val = q.val) :
    @Eq EReal ((iblk1 V c 1 t : Vec Ideal S4096x1024 .f32) (ix2 k q)) ((V c main_arg4 : S4096x1024.Idx → EReal) (ix2 k s)) := by
  obtain ⟨-, -, e2, e3, -⟩ := index_maps t
  unfold iblk1
  rw [View.read_apply]
  show V c main_arg4 _ = V c main_arg4 _
  refine congrArg (V c main_arg4) ?_
  funext a
  apply Fin.ext
  match a with
  | ⟨0, _⟩ => show win1_1.index t (0 : Fin 2) * 4096 + 1 * k.val = k.val; omega
  | ⟨1, _⟩ => show win1_1.index t (1 : Fin 2) * 1024 + 1 * q.val = s.val; omega

/-- What point `t` writes back is block `t` of the product of the hidden array with the down weights. -/
theorem out_flushed (c : Dev nD) (t : Fin cfg1.N) :
    (dat1 V c).flushed 2 t = ((cfg1.win 2).blk t).view.read (Elt Ideal)
      (matProd (V c main_v24 : S8192x4096.Idx → EReal) (V c main_arg4 : S4096x1024.Idx → EReal)) := by
  obtain ⟨-, -, -, -, e4, -⟩ := index_maps t
  show (cfg1.win 2).cut (grid1.coords t) ((dat1 V c).after 2 t) = _
  rw [after1_2]
  unfold out1_2
  rw [View.canon_unit_zero zero_offsets]
  simp only [View.ld_unit_zero (S := S256x4096) zero_offsets, View.ld_unit_zero (S := S4096x1024) zero_offsets]
  refine funext fun (j : S256x1024.Idx) => ?_
  obtain ⟨p, q, rfl⟩ : ∃ (p : Fin 256) (q : Fin 1024), j = ix2 p q := ⟨j 0, j 1, eq_ix2 j⟩
  rw [View.read_apply]
  show k1_pay1 (F := Ideal) (iblk1 V c 0 t) (iblk1 V c 1 t) (ix2 p q) = _
  refine (BlockProducts.down_block_apply (iblk1 V c 0 t) (iblk1 V c 1 t) p q).trans ?_
  unfold matProd
  refine Finset.sum_congr (M := EReal) rfl fun k _ => ?_
  exact congrArg₂ (· * ·)
    (hidden_block_apply V c t p k _ (by show win1_2.index t (0 : Fin 2) * 256 + 1 * p.val = _; omega))
    (weight_block_apply V c t k q _ (by show win1_2.index t (1 : Fin 2) * 1024 + 1 * q.val = _; omega))

/-- An entry of the output is in point `t`'s block iff each coordinate is in the block's range. -/
theorem out_mem_block (t : Fin cfg1.N) (i : S8192x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v25).slice (win1_2.rect t)).set ↔ _
  rw [View.set_slice_whole, Rect.mem_set_unit]
  exact Iff.rfl

/-- The row blocks tile the output: row `r` is in the block of point `r / 256`. -/
theorem out_cover (i : S8192x1024.Idx) : ∃ t : Fin cfg1.N, (cfg1.win 2).flush t = true ∧ i ∈ ((cfg1.win 2).blk t).view.set := by
  have hi0 : (i 0).val < 8192 := (i 0).isLt
  have hi1 : (i 1).val < 1024 := (i 1).isLt
  obtain ⟨t, ht⟩ := points_onto ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [out_mem_block]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 1024 ≤ (i 1).val ∧ (i 1).val < win1_2.index t (1 : Fin 2) * 1024 + 1024; omega

/-- THE OUTPUT after the region: the product of the hidden array with the down weights, as the region found them. -/
theorem out_array (c : Dev nD) :
    (dat1 V c).arrAt 2 cfg1.N = matProd (V c main_v24 : S8192x4096.Idx → EReal) (V c main_arg4 : S4096x1024.Idx → EReal) :=
  (dat1 V c).arrAt_eq_of_cover 2 _ (fun t _ => out_flushed V c t) out_cover

end Cert.KernelIdeal.Down

end
-- ==== Proof.HostMiddle.lean ====
/-
  The host operations both programs apply between their matrix products, as one function `middle` of the gate
  array, the up array and the index array.

  For token `n` and slot `j`, the index `idx (n, j)` (a negative one counted from the end of the hidden axis) picks
  a hidden feature; the gate and the up arrays are read there (`takeAlong`: positions whose index is out of range
  read the fill literal the lowering supplies); the gate value goes through `silu`, `x * (1 / (1 + exp (-x)))`, and is
  multiplied by the up value; and the products are added into a zero array of the hidden shape at `(n, idx (n, j))`
  (`scatterRows`: a scatter-add, so slots of one token that name the same feature accumulate).

  Both programs apply exactly these operations with these literals, in this order; nothing below is ever opened: the
  certificate only uses that `middle` is ONE function.
-/
import proofs.«126895_j36009005809979_1_alg».proof.Proof.Gen.ReferenceIdeal

noncomputable section

namespace Cert.ReferenceIdeal.Middle

open Idealize.ShloMosaic Cert.ReferenceIdeal Cert.ReferenceIdeal.Gen

variable {F : FTy → Type} [FloatOps F]

/-- An index below zero is counted from the end of the hidden axis (4096 is added to it). -/
def wrapIdx (idx : (⟨S8192x512, .i32⟩ : BufTy).Contents (Elt F)) : (⟨S8192x512, .i32⟩ : BufTy).Contents (Elt F) :=
  select (cmpi .slt idx (broadcastInDim S8192x512 ![] bcast_S_S8192x512 (constantI S_ 32 0#32)))
    (addi idx (broadcastInDim S8192x512 ![] bcast_S_S8192x512 (constantI S_ 32 4096#32))) idx

/-- The array `A` read along the hidden axis at the wrapped indices; where the wrapped index is outside
    `0 .. 4095` the result is the fill literal. -/
def takeAlong (A : (⟨S8192x4096, .f32⟩ : BufTy).Contents (Elt F)) (idx : (⟨S8192x512, .i32⟩ : BufTy).Contents (Elt F)) :
    (⟨S8192x512, .f32⟩ : BufTy).Contents (Elt F) :=
  select
    (Host.reduce IntOp.andi
      (andi
        (cmpi .sge (shapeCast S8192x512x1 (wrapIdx idx) shapeCasts_S8192x512_S8192x512x1)
          (broadcastInDim S8192x512x1 ![] bcast_S_S8192x512x1 (constantI S_ 32 0#32)))
        (cmpi .sle (shapeCast S8192x512x1 (wrapIdx idx) shapeCasts_S8192x512_S8192x512x1)
          (broadcastInDim S8192x512x1 ![0, 1, 2] bcast_S1x1x1_S8192x512x1_0_1_2
            (broadcastInDim S1x1x1 ![2] bcast_S1_S1x1x1_2 (constantI S1 32 4095#32)))))
      (constantI S_ 1 1#1) reducesTo_S8192x512x1_S8192x512_d2 h_S_)
    (Host.gather gather_S8192x4096_S8192x512x1_S8192x512_n_1_0_0_1_2_11 A
      (shapeCast S8192x512x1 (wrapIdx idx) shapeCasts_S8192x512_S8192x512x1))
    (broadcastInDim S8192x512 ![] bcast_S_S8192x512 (constant S_ .f32 0x7FC00000#32))

/-- `x * (1 / (1 + exp (-x)))`, entry by entry. -/
def silu (x : (⟨S8192x512, .f32⟩ : BufTy).Contents (Elt F)) : (⟨S8192x512, .f32⟩ : BufTy).Contents (Elt F) :=
  mulf x
    (Host.divf (broadcastInDim S8192x512 ![] bcast_S_S8192x512 (constant S_ .f32 0x3F800000#32))
      (addf (broadcastInDim S8192x512 ![] bcast_S_S8192x512 (constant S_ .f32 0x3F800000#32)) (Host.exp (Host.negf x))))

/-- The token number of every slot, as an index column (a negative one would be counted from the end: none is). -/
def rowIdx : (⟨S8192x512x1, .i32⟩ : BufTy).Contents (Elt F) :=
  broadcastInDim S8192x512x1 ![0, 1] bcast_S8192x512_S8192x512x1_0_1
    (broadcastInDim S8192x512 ![0, 1] bcast_S8192x1_S8192x512_0_1
      (select
        (cmpi .slt (broadcastInDim S8192x1 ![0] bcast_S8192_S8192x1_0 (iotaInDim S8192 32 0))
          (broadcastInDim S8192x1 ![] bcast_S_S8192x1 (constantI S_ 32 0#32)))
        (addi (broadcastInDim S8192x1 ![0] bcast_S8192_S8192x1_0 (iotaInDim S8192 32 0))
          (broadcastInDim S8192x1 ![] bcast_S_S8192x1 (constantI S_ 32 8192#32)))
        (broadcastInDim S8192x1 ![0] bcast_S8192_S8192x1_0 (iotaInDim S8192 32 0))))

/-- The two index columns of the scatter, the token number and the wrapped feature index, side by side. -/
def scatterIdx (idx : (⟨S8192x512, .i32⟩ : BufTy).Contents (Elt F)) : (⟨S8192x512x2, .i32⟩ : BufTy).Contents (Elt F) :=
  concatenate S8192x512x2 2
    [⟨S8192x512x1, rowIdx (F := F)⟩,
     ⟨S8192x512x1, broadcastInDim S8192x512x1 ![0, 1] bcast_S8192x512_S8192x512x1_0_1 (wrapIdx idx)⟩]
    concatenates_S8192x512x1_S8192x512x1_S8192x512x2_d2

/-- The slot values `Z` added into a zero array of the hidden shape, slot `(n, j)` at `(n, wrapped idx (n, j))`. -/
def scatterRows (idx : (⟨S8192x512, .i32⟩ : BufTy).Contents (Elt F)) (Z : (⟨S8192x512, .f32⟩ : BufTy).Contents (Elt F)) :
    (⟨S8192x4096, .f32⟩ : BufTy).Contents (Elt F) :=
  Host.scatterAdd scatter_S8192x4096_S8192x512x2_S8192x512_n_01_01_2
    (broadcastInDim S8192x4096 ![] bcast_S_S8192x4096 (constant S_ .f32 0x00000000#32)) (scatterIdx idx) Z

/-- The whole stretch: gather both arrays at the indices, gate with `silu`, multiply, scatter-add back. -/
def middle (G U : (⟨S8192x4096, .f32⟩ : BufTy).Contents (Elt F)) (idx : (⟨S8192x512, .i32⟩ : BufTy).Contents (Elt F)) :
    (⟨S8192x4096, .f32⟩ : BufTy).Contents (Elt F) :=
  scatterRows idx (mulf (silu (takeAlong G idx)) (takeAlong U idx))

end Cert.ReferenceIdeal.Middle

end
-- ==== Proof.KernelMiddle.lean ====
/-
  The hidden array the down-projection region finds, read through the six stretches of host operations between the
  two regions.

  After the gate/up region the host converts each of its two outputs to f32, gathers both at the indices, gates one
  with `silu`, multiplies, and scatter-adds the products into a zero array. These are exactly the operations of
  `middle` (the module HostMiddle), with the same literals, applied to the two converted outputs and the index
  array as the first region left them: read off the fold of the operations' results, buffer by buffer.
-/
import proofs.«126895_j36009005809979_1_alg».proof.Proof.Gen.KernelIdeal.Frame
import proofs.«126895_j36009005809979_1_alg».proof.Proof.HostMiddle
import Idealize.ShloMosaic.Lib.StableHlo.Run

noncomputable section

namespace Cert.KernelIdeal.Hidden

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The two index columns joined along the last axis, as a function of the two columns. -/
def pairCat (a b : (⟨S8192x512x1, .i32⟩ : BufTy).Contents (Elt F)) : (⟨S8192x512x2, .i32⟩ : BufTy).Contents (Elt F) :=
  concatenate S8192x512x2 2 [⟨S8192x512x1, a⟩, ⟨S8192x512x1, b⟩] concatenates_S8192x512x1_S8192x512x1_S8192x512x2_d2
/-- The concatenation of two pieces is `pairCat` of them. -/
theorem pairCat_fold (a b : (⟨S8192x512x1, .i32⟩ : BufTy).Contents (Elt F)) :
    concatenate S8192x512x2 2 [⟨S8192x512x1, a⟩, ⟨S8192x512x1, b⟩] concatenates_S8192x512x1_S8192x512x1_S8192x512x2_d2 = pairCat a b := rfl

/-- A value moved to a buffer's own type and back is the value. -/
theorem ofBuf_toBuf {T : BufTy} (x : TRef sig T) (v : T.Contents (Elt F)) : x.ofBuf (x.toBuf v) = v := by
  obtain ⟨r, h, _, _⟩ := x; subst h; rfl
/-- At a literal reference the move between the value's type and the buffer's is the identity. -/
theorem ofBuf_main_arg1 (v : main_arg1.ty.Contents (Elt F)) : (TRef.of (sig := sig) (T := ⟨S8192x512, .i32⟩) main_arg1).ofBuf v = v := rfl
theorem toBuf_main_arg1 (v : (⟨S8192x512, .i32⟩ : BufTy).Contents (Elt F)) : (TRef.of (sig := sig) (T := ⟨S8192x512, .i32⟩) main_arg1).toBuf v = v := rfl
theorem ofBuf_main_v1 (v : main_v1.ty.Contents (Elt F)) : (TRef.of (sig := sig) (T := ⟨S8192x4096, .f32⟩) main_v1).ofBuf v = v := rfl
theorem toBuf_main_v1 (v : (⟨S8192x4096, .f32⟩ : BufTy).Contents (Elt F)) : (TRef.of (sig := sig) (T := ⟨S8192x4096, .f32⟩) main_v1).toBuf v = v := rfl
theorem ofBuf_main_v3 (v : main_v3.ty.Contents (Elt F)) : (TRef.of (sig := sig) (T := ⟨S8192x4096, .f32⟩) main_v3).ofBuf v = v := rfl
theorem toBuf_main_v3 (v : (⟨S8192x4096, .f32⟩ : BufTy).Contents (Elt F)) : (TRef.of (sig := sig) (T := ⟨S8192x4096, .f32⟩) main_v3).toBuf v = v := rfl
theorem ofBuf_main_v2 (v : main_v2.ty.Contents (Elt F)) : (TRef.of (sig := sig) (T := ⟨S8192x512, .f32⟩) main_v2).ofBuf v = v := rfl
theorem toBuf_main_v2 (v : (⟨S8192x512, .f32⟩ : BufTy).Contents (Elt F)) : (TRef.of (sig := sig) (T := ⟨S8192x512, .f32⟩) main_v2).toBuf v = v := rfl
theorem ofBuf_main_v4 (v : main_v4.ty.Contents (Elt F)) : (TRef.of (sig := sig) (T := ⟨S8192x512, .f32⟩) main_v4).ofBuf v = v := rfl
theorem toBuf_main_v4 (v : (⟨S8192x512, .f32⟩ : BufTy).Contents (Elt F)) : (TRef.of (sig := sig) (T := ⟨S8192x512, .f32⟩) main_v4).toBuf v = v := rfl
theorem ofBuf_main_v5 (v : main_v5.ty.Contents (Elt F)) : (TRef.of (sig := sig) (T := ⟨S8192x512, .f32⟩) main_v5).ofBuf v = v := rfl
theorem toBuf_main_v5 (v : (⟨S8192x512, .f32⟩ : BufTy).Contents (Elt F)) : (TRef.of (sig := sig) (T := ⟨S8192x512, .f32⟩) main_v5).toBuf v = v := rfl
theorem ofBuf_main_call0_v4 (v : main_call0_v4.ty.Contents (Elt F)) : (TRef.of (sig := sig) (T := ⟨S8192x512, .i32⟩) main_call0_v4).ofBuf v = v := rfl
theorem toBuf_main_call0_v4 (v : (⟨S8192x512, .i32⟩ : BufTy).Contents (Elt F)) : (TRef.of (sig := sig) (T := ⟨S8192x512, .i32⟩) main_call0_v4).toBuf v = v := rfl
theorem ofBuf_main_call0_v5 (v : main_call0_v5.ty.Contents (Elt F)) : (TRef.of (sig := sig) (T := ⟨S8192x512x1, .i32⟩) main_call0_v5).ofBuf v = v := rfl
theorem toBuf_main_call0_v5 (v : (⟨S8192x512x1, .i32⟩ : BufTy).Contents (Elt F)) : (TRef.of (sig := sig) (T := ⟨S8192x512x1, .i32⟩) main_call0_v5).toBuf v = v := rfl
theorem ofBuf_main_call1_v4 (v : main_call1_v4.ty.Contents (Elt F)) : (TRef.of (sig := sig) (T := ⟨S8192x512, .i32⟩) main_call1_v4).ofBuf v = v := rfl
theorem toBuf_main_call1_v4 (v : (⟨S8192x512, .i32⟩ : BufTy).Contents (Elt F)) : (TRef.of (sig := sig) (T := ⟨S8192x512, .i32⟩) main_call1_v4).toBuf v = v := rfl
theorem ofBuf_main_call1_v5 (v : main_call1_v5.ty.Contents (Elt F)) : (TRef.of (sig := sig) (T := ⟨S8192x512x1, .i32⟩) main_call1_v5).ofBuf v = v := rfl
theorem toBuf_main_call1_v5 (v : (⟨S8192x512x1, .i32⟩ : BufTy).Contents (Elt F)) : (TRef.of (sig := sig) (T := ⟨S8192x512x1, .i32⟩) main_call1_v5).toBuf v = v := rfl

set_option maxRecDepth 16384 in
set_option maxHeartbeats 32000000 in
/-- The hidden array at the second region's entry is `middle` of the first region's two outputs, converted, and of the
    index array, all three as the first region left them. -/
theorem hidden_read (c : Dev nD) :
    W7 m ρ c (Proc.devRef .tc main_v24)
      = Cert.ReferenceIdeal.Middle.middle
          (((extf .f32 · bitsLt_bf16_f32) : (⟨S8192x4096, .bf16⟩ : BufTy).Contents (Elt F) → (⟨S8192x4096, .f32⟩ : BufTy).Contents (Elt F))
            (W1 m ρ c (Proc.devRef .tc main_v0_0)))
          (((extf .f32 · bitsLt_bf16_f32) : (⟨S8192x4096, .bf16⟩ : BufTy).Contents (Elt F) → (⟨S8192x4096, .f32⟩ : BufTy).Contents (Elt F))
            (W1 m ρ c (Proc.devRef .tc main_v0_1)))
          (W1 m ρ c (Proc.devRef .tc main_arg1)) := by
  show StableHlo.after hostOps1_5 (StableHlo.after hostOps1_4 (StableHlo.after hostOps1_3 (StableHlo.after hostOps1_2
      (StableHlo.after hostOps1_1 (StableHlo.after hostOps1 (W1 m ρ c)))))) (Proc.devRef .tc main_v24) = _
  simp only [hostOps1, hostOps1_1, hostOps1_2, hostOps1_3, hostOps1_4, hostOps1_5]
  after_results_simp
  rw [pairCat_fold]
  after_results_simp
  simp only [ofBuf_toBuf,
    ofBuf_main_arg1, toBuf_main_arg1, ofBuf_main_v1, toBuf_main_v1, ofBuf_main_v3, toBuf_main_v3,
    ofBuf_main_v2, toBuf_main_v2, ofBuf_main_v4, toBuf_main_v4, ofBuf_main_v5, toBuf_main_v5,
    ofBuf_main_call0_v4, toBuf_main_call0_v4, ofBuf_main_call0_v5, toBuf_main_call0_v5, ofBuf_main_call1_v4, toBuf_main_call1_v4,
    ofBuf_main_call1_v5, toBuf_main_call1_v5]
  unfold Cert.ReferenceIdeal.Middle.middle Cert.ReferenceIdeal.Middle.scatterRows Cert.ReferenceIdeal.Middle.scatterIdx
    Cert.ReferenceIdeal.Middle.silu Cert.ReferenceIdeal.Middle.takeAlong Cert.ReferenceIdeal.Middle.rowIdx
    Cert.ReferenceIdeal.Middle.wrapIdx pairCat
  rfl

end Cert.KernelIdeal.Hidden

end
-- ==== Proof.NamedRun.lean ====
/-
  The kernel program's run, with its result buffer named.

  The program is two kernel regions among six stretches of host operations. Its run over those eight segments ends
  with every buffer that outlives a region at the contents the last boundary names (`Gen.W8`: the launch memory folded
  through the regions' write-backs and the host operations, in order). Read at the result buffer that is the program's
  result; read at an argument's buffer it walks back to the launch memory, since nothing writes an argument.
-/
import proofs.«126895_j36009005809979_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v25) = W8 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v25 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Named

end
-- ==== Proof.Result.lean ====
/-
  The result both programs compute, as one function of the five argument arrays, at the extended reals:
  `(middle (x · w_gate) (x · w_up) idx) · w_down` — the two projections of the tokens, the shared host operations
  between them (the module HostMiddle), and the down projection, each `·` the matrix product (the module MatProd).
-/
import proofs.«126895_j36009005809979_1_alg».proof.Proof.MatProd
import proofs.«126895_j36009005809979_1_alg».proof.Proof.HostMiddle

noncomputable section

namespace Cert.Result

open Idealize.ShloMosaic Cert.MatProd Cert.ReferenceIdeal Cert.ReferenceIdeal.Middle

/-- The hidden array: `middle` of the gate and up projections of the tokens and of the index array. -/
def hidden (x : S8192x1024.Idx → EReal) (idx : (⟨S8192x512, .i32⟩ : BufTy).Contents (Elt Ideal))
    (wg wu : S1024x4096.Idx → EReal) : S8192x4096.Idx → EReal :=
  middle (F := Ideal) (matProd x wg) (matProd x wu) idx

/-- The result: the hidden array's down projection. -/
def result (x : S8192x1024.Idx → EReal) (idx : (⟨S8192x512, .i32⟩ : BufTy).Contents (Elt Ideal))
    (wg wu : S1024x4096.Idx → EReal) (wd : S4096x1024.Idx → EReal) : S8192x1024.Idx → EReal :=
  matProd (hidden x idx wg wu) wd

end Cert.Result

end
-- ==== Proof.KernelValue.lean ====
/-
  The kernel program's result is `result` of its arguments.

  Its result buffer ends as the down-projection region leaves it: the product of the hidden array that region finds
  with the down weights. The hidden array is `middle` of the gate/up region's two outputs (converted to f32: the
  identity on the extended reals) and the index array; those two outputs are the products of the tokens with the gate
  and the up weights. No region and no host operation writes an argument, so each is read as launched.
-/
import proofs.«126895_j36009005809979_1_alg».proof.Proof.GateUpArrays
import proofs.«126895_j36009005809979_1_alg».proof.Proof.DownArray
import proofs.«126895_j36009005809979_1_alg».proof.Proof.KernelMiddle
import proofs.«126895_j36009005809979_1_alg».proof.Proof.NamedRun
import proofs.«126895_j36009005809979_1_alg».proof.Proof.Result

noncomputable section

namespace Cert.KernelIdeal.KernelValue

open Idealize.ShloMosaic Idealize.ShloMosaic.TcCoe Idealize.SL.Sem
open Cert.KernelIdeal Cert.KernelIdeal.Gen Cert.MatProd Cert.Result

variable (m : (ℓ : Loc nD τ sig) → Buf (Elt Ideal) ℓ) (ρ : Dev nD → PrngReg)

/-- The gate output after the first region: the product of the tokens with the gate weights. -/
theorem gate_out (c : Dev nD) :
    W1 m ρ c (Proc.devRef .tc main_v0_0)
      = matProd (m ((c.tc : Thread nD τ).loc main_arg0) : S8192x1024.Idx → EReal) (m ((c.tc : Thread nD τ).loc main_arg2) : S1024x4096.Idx → EReal) :=
  (W1_arr m ρ c 3).trans (GateUp.gate_array (V0 m ρ) c)

/-- The up output after the first region: the product of the tokens with the up weights. -/
theorem up_out (c : Dev nD) :
    W1 m ρ c (Proc.devRef .tc main_v0_1)
      = matProd (m ((c.tc : Thread nD τ).loc main_arg0) : S8192x1024.Idx → EReal) (m ((c.tc : Thread nD τ).loc main_arg3) : S1024x4096.Idx → EReal) :=
  (W1_arr m ρ c 4).trans (GateUp.up_array (V0 m ρ) c)

/-- The index array after the first region is the launched one. -/
theorem idx_kept (c : Dev nD) : W1 m ρ c (Proc.devRef .tc main_arg1) = m ((c.tc : Thread nD τ).loc main_arg1) :=
  W1_of_ne m ρ c main_arg1 (by decide)

/-- The down weights at the second region's entry are the launched ones. -/
theorem down_weights_kept (c : Dev nD) : V7 m ρ c main_arg4 = m ((c.tc : Thread nD τ).loc main_arg4) :=
  (((W8_arr m ρ c 1).trans (((dat1 (V7 m ρ) c).arrAt_in 1 rfl _).trans (A_eq1 (V7 m ρ) c 1))).symm).trans (W8_main_arg4 m ρ c)

/-- The hidden array at the second region's entry is `hidden` of the arguments. -/
theorem hidden_eq (c : Dev nD) :
    V7 m ρ c main_v24
      = hidden (m ((c.tc : Thread nD τ).loc main_arg0)) (m ((c.tc : Thread nD τ).loc main_arg1))
          (m ((c.tc : Thread nD τ).loc main_arg2)) (m ((c.tc : Thread nD τ).loc main_arg3)) := by
  show W7 m ρ c (Proc.devRef .tc main_v24) = _
  rw [Hidden.hidden_read m ρ c, gate_out m ρ c, up_out m ρ c, idx_kept m ρ c]
  -- converting bf16 contents to f32 is the identity on the extended reals
  rfl

/-- THE RESULT BUFFER at the last boundary is `result` of the argument arrays. -/
theorem result_eq (c : Dev nD) :
    W8 m ρ c (Proc.devRef .tc main_v25)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  refine (W8_arr m ρ c 2).trans ?_
  rw [Down.out_array (V7 m ρ) c, hidden_eq m ρ c, down_weights_kept m ρ c]
  rfl

/-- The kernel program's run, read: the result at `result` of the arguments, the arguments unchanged. -/
theorem run : θ_run defs (onTc (τ := τ) (main (F := Ideal))) ⟨m, fun _ => 0, ρ⟩ (fun r => ∀ c : Dev nD,
      r.2.mem ((c.tc : Thread nD τ).loc main_v25)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m ρ c), (h c).2⟩) (Named.run_named (F := Ideal) m ρ)

end Cert.KernelIdeal.KernelValue

end
-- ==== Proof.RefValue.lean ====
/-
  The reference's result is `result` of its arguments.

  The reference's run states its result as one composed term of the arguments. Read from the outside in it is a
  `dot_general` of the host operations' `middle` (applied to two `dot_general`s of the tokens) with the down weights;
  and each plain `dot_general` is the matrix product of its operands.
-/
import proofs.«126895_j36009005809979_1_alg».proof.Proof.RefRunPatched
import proofs.«126895_j36009005809979_1_alg».proof.Proof.Result

noncomputable section

namespace Cert.ReferenceIdeal.RefValue

open Idealize.ShloMosaic Idealize.ShloMosaic.TcCoe Idealize.SL.Sem
open Cert.ReferenceIdeal Cert.ReferenceIdeal.Gen Cert.ReferenceIdeal.ValueP Cert.ReferenceIdeal.Middle Cert.MatProd Cert.Result

variable {F : FTy → Type} [FloatOps F]

set_option maxRecDepth 16384 in
set_option maxHeartbeats 4000000 in
/-- The composed term, read from the outside in: the three products around `middle`. -/
theorem res_structured (m : (ℓ : Loc nD τ sig) → Buf (Elt F) ℓ) (c : Dev nD) :
    res_main_v24 m c
      = Host.dotGeneral dot_S8192x4096_S4096x1024_S8192x1024_1_0_0_1_n_n none
          (middle
            (Host.dotGeneral dot_S8192x1024_S1024x4096_S8192x4096_1_0_0_1_n_n none
              (m ((c.tc : Thread nD τ).loc main_arg0)) (m ((c.tc : Thread nD τ).loc main_arg2)))
            (Host.dotGeneral dot_S8192x1024_S1024x4096_S8192x4096_1_0_0_1_n_n none
              (m ((c.tc : Thread nD τ).loc main_arg0)) (m ((c.tc : Thread nD τ).loc main_arg3)))
            (m ((c.tc : Thread nD τ).loc main_arg1)))
          (m ((c.tc : Thread nD τ).loc main_arg4)) := by
  unfold res_main_v24 middle scatterRows scatterIdx silu takeAlong rowIdx wrapIdx
  rfl

/-- At the extended reals the reference's result is `result` of the argument arrays. -/
theorem res_eq (m : (ℓ : Loc nD τ sig) → Buf (Elt Ideal) ℓ) (c : Dev nD) :
    res_main_v24 (F := Ideal) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [res_structured]
  have hg : Host.dotGeneral (F := Ideal) (φ₁ := .f32) (φ₂ := .f32) dot_S8192x1024_S1024x4096_S8192x4096_1_0_0_1_n_n none (m ((c.tc : Thread nD τ).loc main_arg0)) (m ((c.tc : Thread nD τ).loc main_arg2)) = matProd (m ((c.tc : Thread nD τ).loc main_arg0)) (m ((c.tc : Thread nD τ).loc main_arg2)) :=
    dotGeneral_eq_matProd (M := 8192) (K := 1024) (N := 4096) (φ₁ := .f32) (φ₂ := .f32) none (m ((c.tc : Thread nD τ).loc main_arg0)) (m ((c.tc : Thread nD τ).loc main_arg2))
  have hu : Host.dotGeneral (F := Ideal) (φ₁ := .f32) (φ₂ := .f32) dot_S8192x1024_S1024x4096_S8192x4096_1_0_0_1_n_n none (m ((c.tc : Thread nD τ).loc main_arg0)) (m ((c.tc : Thread nD τ).loc main_arg3)) = matProd (m ((c.tc : Thread nD τ).loc main_arg0)) (m ((c.tc : Thread nD τ).loc main_arg3)) :=
    dotGeneral_eq_matProd (M := 8192) (K := 1024) (N := 4096) (φ₁ := .f32) (φ₂ := .f32) none (m ((c.tc : Thread nD τ).loc main_arg0)) (m ((c.tc : Thread nD τ).loc main_arg3))
  rw [hg, hu]
  exact dotGeneral_eq_matProd (M := 8192) (K := 4096) (N := 1024) (φ₁ := .f32) (φ₂ := .f32) none _ _

end Cert.ReferenceIdeal.RefValue

end
-- ==== Proof.lean ====
/-
  A sparse SwiGLU feed-forward layer, the kernel program against its reference, at the extended reals.

  Both programs compute `(middle (x · w_gate) (x · w_up) idx) · w_down`: project the tokens `x` onto the hidden axis
  twice, keep at each token's 512 indexed hidden features the value `silu (gate) * up` (gather, gate, multiply,
  scatter-add into zeros: `middle`), and project back. The reference writes the three products as `dot_general`s; the
  kernel program computes each in a tiled region, bf16 operands into an f32 accumulator, with the first two results
  stored as bf16 and converted back by the host.

  Why the two agree. On the extended reals a change of float format is the identity. Every block of every region
  holds its WHOLE contraction axis (all 1024 model features; all 4096 hidden features), so an entry of a stored block
  is literally the reference's sum `∑ k, a (r, k) * b (k, c)`: no sum is split or reordered, and no law that needs
  finite operands is used (the precondition is not opened). The blocks tile each output, so each region's output
  array is the matrix product of the arrays it found. Between the regions both programs apply the same host
  operations with the same literals (the index wrap, the bounds mask and its fill literal, `silu`, the scatter-add),
  carried as ONE function `middle` that is never opened: out-of-range and repeated indices mean whatever they mean,
  identically on both sides.

  The frames of the two kernel programs are the generated ones; the reference's is its run with the result
  dropped. The idealization rewrote no operation, so `preserves` has no conjunct.
-/
import proofs.«126895_j36009005809979_1_alg».proof.Defs
import proofs.«126895_j36009005809979_1_alg».proof.Proof.Gen.Kernel
import proofs.«126895_j36009005809979_1_alg».proof.Proof.Gen.Kernel.Skeleton
import proofs.«126895_j36009005809979_1_alg».proof.Proof.Gen.Kernel.Launch
import proofs.«126895_j36009005809979_1_alg».proof.Proof.Gen.Kernel.Points
import proofs.«126895_j36009005809979_1_alg».proof.Proof.Gen.Kernel.Frame
import proofs.«126895_j36009005809979_1_alg».proof.Proof.Gen.KernelIdeal
import proofs.«126895_j36009005809979_1_alg».proof.Proof.Gen.KernelIdeal.Skeleton
import proofs.«126895_j36009005809979_1_alg».proof.Proof.Gen.KernelIdeal.Launch
import proofs.«126895_j36009005809979_1_alg».proof.Proof.Gen.KernelIdeal.Points
import proofs.«126895_j36009005809979_1_alg».proof.Proof.Gen.KernelIdeal.Frame
import proofs.«126895_j36009005809979_1_alg».proof.Proof.Gen.ReferenceIdeal
import proofs.«126895_j36009005809979_1_alg».proof.Proof.Gen.Pre_finite_inputs
import proofs.«126895_j36009005809979_1_alg».proof.Proof.KernelValue
import proofs.«126895_j36009005809979_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel program: nothing to preserve. -/
theorem preserves : Cert.preserves_Kernel_KernelIdeal := trivial

/-- From memories agreeing on the five arguments both programs end with `result` of those arguments: the kernel
    program by its regions' products around `middle`, the reference by its `dot_general`s around the same `middle`. -/
theorem algebraic : Cert.algebraic_KernelIdeal_ReferenceIdeal := by
  intro m ρ m' ρ' _ hagree
  refine ⟨fun c => Cert.Result.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq m' c, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
